-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8x1024 : Shape := ⟨2, ![8, 1024]⟩
abbrev S8x1 : Shape := ⟨2, ![8, 1]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8x1 : S_.BroadcastsInDim S8x1 (![] : Fin 0 → Fin S8x1.rank)
  reducesTo_S8x1_S_d0_1 : S8x1.ReducesTo [0, 1] S_

variable [Facts]

def fn_part1 {F : FTy → Type} [FloatOps F] (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  main_v18

def fn {F : FTy → Type} [FloatOps F] (main_arg0 : FVec F S4x2048x1024 .f32) (main_arg1 : FVec F S8x1024 .f32) (main_arg2 : FVec F S8x1024 .f32) (main_arg3 : FVec F S8x1 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1 .f32 := Host.absf main_arg3
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_v13 main_v16
-- ==== Kernel.lean ====
abbrev S4x2048x1024 : Shape := ⟨3, ![4, 2048, 1024]⟩
abbrev S8x1024 : Shape := ⟨2, ![8, 1024]⟩
abbrev S8x1 : Shape := ⟨2, ![8, 1]⟩
abbrev S_ : Shape := ⟨0, ![]⟩
abbrev S1 : Shape := ⟨1, ![1]⟩
abbrev S1x1 : Shape := ⟨2, ![1, 1]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 46
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S8x1024, .f32⟩
  | .hbm, ⟨2, _⟩ => ⟨S8x1024, .f32⟩
  | .hbm, ⟨3, _⟩ => ⟨S8x1, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .i1⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S1x1, .f32⟩
  | .hbm, ⟨30, _⟩ => ⟨S8x1, .f32⟩
  | .hbm, ⟨31, _⟩ => ⟨S8x1, .f32⟩
  | .hbm, ⟨32, _⟩ => ⟨S8x1, .f32⟩
  | .hbm, ⟨33, _⟩ => ⟨S_, .f32⟩
  | .hbm, ⟨34, _⟩ => ⟨S1, .f32⟩
  | .hbm, ⟨35, _⟩ => ⟨S1x1, .f32⟩
  | .hbm, ⟨36, _⟩ => ⟨S8x1, .f32⟩
  | .hbm, ⟨37, _⟩ => ⟨S8x1, .f32⟩
  | .hbm, ⟨38, _⟩ => ⟨S_, .f32⟩
  | .hbm, ⟨39, _⟩ => ⟨S8x1, .f32⟩
  | .hbm, ⟨40, _⟩ => ⟨S8x1, .f32⟩
  | .hbm, ⟨41, _⟩ => ⟨S8x1, .f32⟩
  | .hbm, ⟨42, _⟩ => ⟨S8x1024, .f32⟩
  | .hbm, ⟨43, _⟩ => ⟨S8x1024, .f32⟩
  | .hbm, ⟨44, _⟩ => ⟨S8x1024, .f32⟩
  | .hbm, ⟨45, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S8x1024, .f32⟩
  | .local _ .vmem, ⟨3, _⟩ => ⟨S8x1, .f32⟩
  | .local _ .vmem, ⟨4, _⟩ => ⟨S8x1024, .f32⟩
  | .local _ .vmem, ⟨5, _⟩ => ⟨S8x1024, .f32⟩
  | .local _ .vmem, ⟨6, _⟩ => ⟨S1x512x1024, .f32⟩
  | .local _ .vmem, ⟨7, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x1024 : S_.BroadcastsInDim S8x1024 (![] : Fin 0 → Fin S8x1024.rank)
  reducesTo_S8x1_S1_d0 : S8x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  bcast_S8x1_S8x1024_0_1 : S8x1.BroadcastsInDim S8x1024 (![0, 1] : Fin 2 → Fin S8x1024.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S8x1024_S8x1024_0_0 : ∀ a, (![0, 0] : Fin 2 → Nat) a + S8x1024.size a ≤ S8x1024.size a
  h_S8x1024 : 0 < S8x1024.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1024_S8x1024 : S8x1024.ShapeCasts S8x1024
  slices_S8x1024_o0_0_S1x1024 : S8x1024.Slices ![0, 0] S1x1024
  broadcasts_S1x1024_S512x1024 : S1x1024.Broadcasts S512x1024
  slices_S8x1_o0_0_S1x1 : S8x1.Slices ![0, 0] S1x1
  broadcasts_S1x1_S512x1024 : S1x1.Broadcasts S512x1024
  slices_S8x1024_o1_0_S1x1024 : S8x1024.Slices ![1, 0] S1x1024
  slices_S8x1_o1_0_S1x1 : S8x1.Slices ![1, 0] S1x1
  slices_S8x1024_o2_0_S1x1024 : S8x1024.Slices ![2, 0] S1x1024
  slices_S8x1_o2_0_S1x1 : S8x1.Slices ![2, 0] S1x1
  slices_S8x1024_o3_0_S1x1024 : S8x1024.Slices ![3, 0] S1x1024
  slices_S8x1_o3_0_S1x1 : S8x1.Slices ![3, 0] S1x1
  slices_S8x1024_o4_0_S1x1024 : S8x1024.Slices ![4, 0] S1x1024
  slices_S8x1_o4_0_S1x1 : S8x1.Slices ![4, 0] S1x1
  slices_S8x1024_o5_0_S1x1024 : S8x1024.Slices ![5, 0] S1x1024
  slices_S8x1_o5_0_S1x1 : S8x1.Slices ![5, 0] S1x1
  slices_S8x1024_o6_0_S1x1024 : S8x1024.Slices ![6, 0] S1x1024
  slices_S8x1_o6_0_S1x1 : S8x1.Slices ![6, 0] S1x1
  slices_S8x1024_o7_0_S1x1024 : S8x1024.Slices ![7, 0] S1x1024
  slices_S8x1_o7_0_S1x1 : S8x1.Slices ![7, 0] S1x1
  shapeCasts_S512x1024_S1x512x1024 : S512x1024.ShapeCasts S1x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .f32 = 32 ∨ (Rect.block (s := S8x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x1024.size a
  hwx0_3 : ∀ i : grid0.Coords, EltTy.bits .f32 = 32 ∨ (Rect.block (s := S8x1024) S8x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .f32 = 32 ∨ (Rect.block (s := S4x2048x1024) S1x512x1024.size (cc0_transform_5 i) (hinb0_5 i)).WholeWords (EltTy.packing .f32)

variable [Facts₀]

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S8x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8x1024 : Shape := ⟨2, ![8, 1024]⟩
abbrev S8x1 : Shape := ⟨2, ![8, 1]⟩
abbrev S_ : Shape := ⟨0, ![]⟩
abbrev S1 : Shape := ⟨1, ![1]⟩
abbrev S1x1 : Shape := ⟨2, ![1, 1]⟩
abbrev S8x1x1x1 : Shape := ⟨4, ![8, 1, 1, 1]⟩
abbrev S8x1x1x1024 : Shape := ⟨4, ![8, 1, 1, 1024]⟩
abbrev S1x4x2048x1024 : Shape := ⟨4, ![1, 4, 2048, 1024]⟩
abbrev S8x4x2048x1024 : Shape := ⟨4, ![8, 4, 2048, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8x1024, .f32⟩
  | .hbm, ⟨2, _⟩ => ⟨S8x1024, .f32⟩
  | .hbm, ⟨3, _⟩ => ⟨S8x1, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .i1⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1x1, .f32⟩
  | .hbm, ⟨24, _⟩ => ⟨S8x1, .f32⟩
  | .hbm, ⟨25, _⟩ => ⟨S8x1, .f32⟩
  | .hbm, ⟨26, _⟩ => ⟨S8x1, .f32⟩
  | .hbm, ⟨27, _⟩ => ⟨S_, .f32⟩
  | .hbm, ⟨28, _⟩ => ⟨S1, .f32⟩
  | .hbm, ⟨29, _⟩ => ⟨S1x1, .f32⟩
  | .hbm, ⟨30, _⟩ => ⟨S8x1, .f32⟩
  | .hbm, ⟨31, _⟩ => ⟨S8x1, .f32⟩
  | .hbm, ⟨32, _⟩ => ⟨S8x1x1x1, .f32⟩
  | .hbm, ⟨33, _⟩ => ⟨S8x1x1x1024, .f32⟩
  | .hbm, ⟨34, _⟩ => ⟨S1x4x2048x1024, .f32⟩
  | .hbm, ⟨35, _⟩ => ⟨S8x1x1x1024, .f32⟩
  | .hbm, ⟨36, _⟩ => ⟨S8x4x2048x1024, .f32⟩
  | .hbm, ⟨37, _⟩ => ⟨S8x4x2048x1024, .f32⟩
  | .hbm, ⟨38, _⟩ => ⟨S8x4x2048x1024, .f32⟩
  | .hbm, ⟨39, _⟩ => ⟨S_, .f32⟩
  | .hbm, ⟨40, _⟩ => ⟨S8x4x2048x1024, .f32⟩
  | .hbm, ⟨41, _⟩ => ⟨S8x4x2048x1024, .f32⟩
  | .hbm, ⟨42, _⟩ => ⟨S8x4x2048x1024, .f32⟩
  | .hbm, ⟨43, _⟩ => ⟨S_, .f32⟩
  | .hbm, ⟨44, _⟩ => ⟨S8x1x1x1024, .f32⟩
  | .hbm, ⟨45, _⟩ => ⟨S8x1x1x1024, .f32⟩
  | .hbm, ⟨46, _⟩ => ⟨S8x4x2048x1024, .f32⟩
  | .hbm, ⟨47, _⟩ => ⟨S8x4x2048x1024, .f32⟩
  | .hbm, ⟨48, _⟩ => ⟨S8x4x2048x1024, .f32⟩
  | .hbm, ⟨49, _⟩ => ⟨S8x4x2048x1024, .f32⟩
  | .hbm, ⟨50, _⟩ => ⟨S8x4x2048x1024, .f32⟩
  | .hbm, ⟨51, _⟩ => ⟨S_, .f32⟩
  | .hbm, ⟨52, _⟩ => ⟨S4x2048x1024, .f32⟩
  | .hbm, ⟨53, _⟩ => ⟨S_, .f32⟩
  | .hbm, ⟨54, _⟩ => ⟨S4x2048x1024, .f32⟩
  | .hbm, ⟨55, _⟩ => ⟨S4x2048x1024, .f32⟩
  | .hbm, ⟨56, _⟩ => ⟨S1x4x2048x1024, .f32⟩
  | .hbm, ⟨57, _⟩ => ⟨S8x4x2048x1024, .f32⟩
  | .hbm, ⟨58, _⟩ => ⟨S8x4x2048x1024, .f32⟩
  | .hbm, ⟨59, _⟩ => ⟨S_, .f32⟩
  | .hbm, ⟨60, _⟩ => ⟨S8x1x1x1, .f32⟩
  | .hbm, ⟨61, _⟩ => ⟨S8x1x1x1, .f32⟩
  | .hbm, ⟨62, _⟩ => ⟨S8x1x1x1, .f32⟩
  | .hbm, ⟨63, _⟩ => ⟨S8x4x2048x1024, .f32⟩
  | .hbm, ⟨64, _⟩ => ⟨S8x4x2048x1024, .f32⟩
  | .hbm, ⟨65, _⟩ => ⟨S8x4x2048x1024, .f32⟩
  | .hbm, ⟨66, _⟩ => ⟨S_, .f32⟩
  | .hbm, ⟨67, _⟩ => ⟨S8x1x1x1024, .f32⟩
  | .hbm, ⟨68, _⟩ => ⟨S8x1x1x1024, .f32⟩
  | .hbm, ⟨69, _⟩ => ⟨S8x1x1x1024, .f32⟩
  | .hbm, ⟨70, _⟩ => ⟨S8x4x2048x1024, .f32⟩
  | .hbm, ⟨71, _⟩ => ⟨S8x4x2048x1024, .f32⟩
  | .hbm, ⟨72, _⟩ => ⟨S_, .f32⟩
  | .hbm, ⟨73, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  reducesTo_S8x1_S1_d0 : S8x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S8x1_S8x1x1x1_0_1 : S8x1.BroadcastsInDim S8x1x1x1 (![0, 1] : Fin 2 → Fin S8x1x1x1.rank)
  bcast_S8x1024_S8x1x1x1024_0_3 : S8x1024.BroadcastsInDim S8x1x1x1024 (![0, 3] : Fin 2 → Fin S8x1x1x1024.rank)
  bcast_S4x2048x1024_S1x4x2048x1024_1_2_3 : S4x2048x1024.BroadcastsInDim S1x4x2048x1024 (![1, 2, 3] : Fin 3 → Fin S1x4x2048x1024.rank)
  bcast_S1x4x2048x1024_S8x4x2048x1024_0_1_2_3 : S1x4x2048x1024.BroadcastsInDim S8x4x2048x1024 (![0, 1, 2, 3] : Fin 4 → Fin S8x4x2048x1024.rank)
  bcast_S8x1x1x1024_S8x4x2048x1024_0_1_2_3 : S8x1x1x1024.BroadcastsInDim S8x4x2048x1024 (![0, 1, 2, 3] : Fin 4 → Fin S8x4x2048x1024.rank)
  bcast_S_S8x4x2048x1024 : S_.BroadcastsInDim S8x4x2048x1024 (![] : Fin 0 → Fin S8x4x2048x1024.rank)
  bcast_S_S8x1x1x1024 : S_.BroadcastsInDim S8x1x1x1024 (![] : Fin 0 → Fin S8x1x1x1024.rank)
  bcast_S8x1x1x1_S8x4x2048x1024_0_1_2_3 : S8x1x1x1.BroadcastsInDim S8x4x2048x1024 (![0, 1, 2, 3] : Fin 4 → Fin S8x4x2048x1024.rank)
  reducesTo_S8x4x2048x1024_S4x2048x1024_d0 : S8x4x2048x1024.ReducesTo [0] S4x2048x1024
  bcast_S_S4x2048x1024 : S_.BroadcastsInDim S4x2048x1024 (![] : Fin 0 → Fin S4x2048x1024.rank)
  bcast_S_S8x1x1x1 : S_.BroadcastsInDim S8x1x1x1 (![] : Fin 0 → Fin S8x1x1x1.rank)

variable [Facts₀]

class Facts : Prop extends Facts₀ where

variable [Facts]
-- ==== Proof.Finite.lean ====
import proofs.«157584_j66735201845900_2_alg».proof.Proof.Gen.Pre_finite_inputs
import Idealize.ShloMosaic.PureOps.Ideal
import Idealize.ShloMosaic.Lib.ReduceAll
import Idealize.ShloMosaic.Lib.ValueIdx

/-!
  From "every float input is finite" to "every entry of each input array is a real number".

  The precondition compares, entry by entry, the absolute value |x| = max x (-x) strictly below +∞,
  takes the conjunction over all entries of an array, and joins the four arrays' conjunctions.
  Read at the extended reals: an entry x with max x (-x) < ⊤ is neither ⊤ (then max x (-x) = ⊤)
  nor ⊥ (then -x = ⊤), hence the image of a real number.
-/

noncomputable section

namespace Cert.PosteriorNorm

open Idealize.ShloMosaic

/-- The 32-bit pattern with all exponent bits set and zero significand denotes +∞. -/
theorem ofBits_pos_inf : Ideal.ofBits .f32 0x7F800000#32 = (⊤ : EReal) := by
  simp [Ideal.ofBits, Ideal.ieee]

/-- An extended real whose absolute value max x (-x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞ holding on one value says the value is real. -/
theorem real_of_cmp_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_pos_inf] at h'
  unfold Ideal.cmp at h'
  by_cases hlt : max (x : EReal) (-(x : EReal)) < ⊤
  · exact real_of_abs_lt_top x hlt
  · simp [hlt] at h'

/-- The scalar shape has exactly one index. -/
instance : Subsingleton Cert.Pre_finite_inputs.S_.Idx := ⟨fun a b => funext fun d => d.elim0⟩

/-- An array all of whose entries compare, in absolute value, strictly below the splat of +∞
    (the conjunction over every axis being true) has only real entries. -/
theorem real_of_all_abs_lt_inf {s u : Shape} {axes : List (Fin s.rank)} (x : FVec Ideal s .f32)
    (hb : Cert.Pre_finite_inputs.S_.BroadcastsInDim s (![] : Fin 0 → Fin s.rank))
    (init : u.Idx → BitVec 1) (hr : s.ReducesTo axes Cert.Pre_finite_inputs.S_) (hu : 0 < u.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          init hr hu j = 1#1) :
    ∀ i, ∃ r : ℝ, x i = (r : EReal) := fun i =>
  real_of_cmp_abs_lt_inf (x i) (Host.reduce_andi_all _ init hr hu j e i)

/-- The precondition decoded: every entry of each of the four input arrays is a real number. -/
theorem real_of_finite_inputs (x0 : FVec Ideal Cert.Pre_finite_inputs.S4x2048x1024 .f32)
    (x1 x2 : FVec Ideal Cert.Pre_finite_inputs.S8x1024 .f32) (x3 : FVec Ideal Cert.Pre_finite_inputs.S8x1 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have e := congrFun h ValueIdx.ix0
  dsimp only [Cert.Pre_finite_inputs.fn, Cert.Pre_finite_inputs.fn_part1, andi] at e
  obtain ⟨e012, e3⟩ := IntOp.andi_eq_one.1 e
  obtain ⟨e01, e2⟩ := IntOp.andi_eq_one.1 e012
  obtain ⟨e0, e1⟩ := IntOp.andi_eq_one.1 e01
  exact ⟨real_of_all_abs_lt_inf x0 _ _ _ _ _ e0, real_of_all_abs_lt_inf x1 _ _ _ _ _ e1,
    real_of_all_abs_lt_inf x2 _ _ _ _ _ e2, real_of_all_abs_lt_inf x3 _ _ _ _ _ e3⟩

end Cert.PosteriorNorm

end
-- ==== Proof.Spec.lean ====
/-
  Posterior-weighted normalisation over eight mixture components, one output element at a time.

  For a sample value x and, per component k, a mean μ k, a weight π k (a softmax entry) and a spread σ k (a softplus
  value), both programs form the unnormalised posterior w k = π k · exp(−½ (x − μ k)² / (σ k + ε)) and return
      Σ_k  w k / (Σ_j w j + ε) · (x − μ k) / ( √(π k + ε) · √(σ k + ε) ).
  One program divides term by term and by the two square roots; the other multiplies each term by the product of the two
  reciprocal square roots, adds the eight terms one after the other onto zero, and multiplies the total once by the
  reciprocal of the normaliser. This file states the two arrangements on the extended reals, with the four float
  constants kept as the words the programs print.
-/
import Idealize.ShloMosaic.PureOps.Ideal
import Idealize.ShloMosaic.Lib.ValueIdx

noncomputable section

namespace Cert.PosteriorNorm

open Idealize.ShloMosaic

/-- ε, the word of the single-precision number nearest 1/1000. -/
def eps : EReal := Ideal.ofBits .f32 0x3A83126F#32
/-- −1/2. -/
def negHalf : EReal := Ideal.ofBits .f32 0xBF000000#32
/-- 1. -/
def one : EReal := Ideal.ofBits .f32 0x3F800000#32
/-- 0. -/
def zero : EReal := Ideal.ofBits .f32 0x00000000#32

/-- Eight terms added one after the other onto zero, first term first. -/
def acc8 (f : Fin 8 → EReal) : EReal := zero + f 0 + f 1 + f 2 + f 3 + f 4 + f 5 + f 6 + f 7

/-- The unnormalised posterior of component k in the factored arrangement: the exponent is (−½ / (σ k + ε)) · d · d. -/
def wFactored (pr sp mu : Fin 8 → EReal) (x : EReal) (k : Fin 8) : EReal :=
  pr k * Ideal.exp (Ideal.div negHalf (sp k + eps) * (x - mu k) * (x - mu k))

/-- The factored arrangement: the eight weighted, scaled deviations added in order, times the reciprocal of the normaliser. -/
def factored (pr sp mu : Fin 8 → EReal) (x : EReal) : EReal :=
  acc8 (fun k => wFactored pr sp mu x k * (Ideal.rsqrt (pr k + eps) * Ideal.rsqrt (sp k + eps) * (x - mu k)))
    * Ideal.div one (acc8 (wFactored pr sp mu x) + eps)

/-- The unnormalised posterior of component k in the termwise arrangement: the exponent is (−½ · d · d) / (σ k + ε). -/
def wTermwise (pr sp mu : Fin 8 → EReal) (x : EReal) (k : Fin 8) : EReal :=
  pr k * Ideal.exp (Ideal.div (negHalf * (x - mu k) * (x - mu k)) (sp k + eps))

/-- The termwise arrangement: each posterior divided by the normaliser and by √(π k + ε), times the deviation, divided by
    √(σ k + ε); the eight quotients summed onto zero. -/
def termwise (pr sp mu : Fin 8 → EReal) (x : EReal) : EReal :=
  zero + ∑ k : Fin 8,
    Ideal.div (Ideal.div (Ideal.div (wTermwise pr sp mu x k) ((zero + ∑ j : Fin 8, wTermwise pr sp mu x j) + eps))
      (Ideal.sqrt (pr k + eps)) * (x - mu k)) (Ideal.sqrt (sp k + eps))

end Cert.PosteriorNorm

end
-- ==== Proof.BodyValue.lean ====
/-
  What one launch of the kernel body leaves in its output block, one element at a time.

  The body loads the sample block X [1, 512, 1024] and four small tables — the means M, the scaled reciprocal spreads N and
  the combined coefficients C, each [8, 1024], and the weights P [8, 1] — takes row k of each table, spreads it over the
  512 sample rows, and accumulates over the eight rows: the element (0, r, d) of what it stores depends on X at (0, r, d), on
  M, N, C at (k, d) and on P at (k, 0) only, and is the factored arrangement's arithmetic of those numbers.
-/
import proofs.«157584_j66735201845900_2_alg».proof.Proof.Spec
import proofs.«157584_j66735201845900_2_alg».proof.Proof.Gen.KernelIdeal.Skeleton
import Idealize.ShloMosaic.Lib.Pipeline.Value
import Idealize.ShloMosaic.Lib.ValueIdx

noncomputable section

namespace Cert.PosteriorNorm

open Idealize.ShloMosaic Idealize.ShloMosaic.TcCoe Idealize.ShloMosaic.ValueIdx Cert.KernelIdeal Cert.KernelIdeal.Gen

/-- The body's arithmetic on one element: per component k a weight p k, an exponent scale n k, a mean, a coefficient c k. -/
def blockElt (p n mu c : Fin 8 → EReal) (x : EReal) : EReal :=
  acc8 (fun k => p k * Ideal.exp (n k * (x - mu k) * (x - mu k)) * (c k * (x - mu k)))
    * Ideal.div one (acc8 (fun k => p k * Ideal.exp (n k * (x - mu k) * (x - mu k))) + eps)

/-- With the exponent scale −½ / (σ + ε) and the coefficient the product of the two reciprocal square roots, the body's
    arithmetic is the factored arrangement. -/
theorem factored_eq_blockElt (pr sp mu : Fin 8 → EReal) (x : EReal) :
    factored pr sp mu x
      = blockElt pr (fun k => Ideal.div negHalf (sp k + eps)) mu (fun k => Ideal.rsqrt (pr k + eps) * Ideal.rsqrt (sp k + eps)) x := rfl

section Layout
variable {α : Type}

/-- Row k of an [8, 1024] table, spread over 512 rows, read at (r, d): the table at (k, d). -/
theorem row_spread (k : Nat) (v : S8x1024.Idx → α) (h : S8x1024.Slices ![k, 0] S1x1024) (hb : S1x1024.Broadcasts S512x1024)
    (r : Fin 512) (d : Fin 1024) :
    broadcastTo S512x1024 (extractStridedSlice S1x1024 ![k, 0] v h) hb (ix2 r d)
      = v (ix2 (⟨k, by have := h.2 (0 : Fin 2); simp at this; omega⟩ : Fin 8) d) := by
  refine (broadcastTo_apply _ hb (ix2 r d) (ix2 (0 : Fin 1) d) (fun a => ?_)).trans ?_
  · match a with
    | ⟨0, _⟩ => show 0 = if (1 : Nat) = 1 then 0 else r.val; rw [if_pos rfl]
    | ⟨1, _⟩ => show d.val = if (1024 : Nat) = 1 then 0 else d.val; rw [if_neg (by decide)]
  · refine extractStridedSlice_apply ![k, 0] v h (ix2 (0 : Fin 1) d) _ (fun a => ?_)
    match a with
    | ⟨0, _⟩ => show k = k + 0; omega
    | ⟨1, _⟩ => show d.val = 0 + d.val; omega

/-- Entry k of the [8, 1] column, spread over the whole [512, 1024] block: the column at (k, 0). -/
theorem entry_spread (k : Nat) (v : S8x1.Idx → α) (h : S8x1.Slices ![k, 0] S1x1) (hb : S1x1.Broadcasts S512x1024)
    (r : Fin 512) (d : Fin 1024) :
    broadcastTo S512x1024 (extractStridedSlice S1x1 ![k, 0] v h) hb (ix2 r d)
      = v (ix2 (⟨k, by have := h.2 (0 : Fin 2); simp at this; omega⟩ : Fin 8) (0 : Fin 1)) := by
  refine (broadcastTo_apply _ hb (ix2 r d) (ix2 (0 : Fin 1) (0 : Fin 1)) (fun a => ?_)).trans ?_
  · match a with
    | ⟨0, _⟩ => show 0 = if (1 : Nat) = 1 then 0 else r.val; rw [if_pos rfl]
    | ⟨1, _⟩ => show 0 = if (1 : Nat) = 1 then 0 else d.val; rw [if_pos rfl]
  · refine extractStridedSlice_apply ![k, 0] v h (ix2 (0 : Fin 1) (0 : Fin 1)) _ (fun a => ?_)
    match a with
    | ⟨0, _⟩ => show k = k + 0; omega
    | ⟨1, _⟩ => show 0 = 0 + 0; omega

/-- The sample block with its unit axis dropped, read at (r, d): the block at (0, r, d). -/
theorem drop_unit (v : S1x512x1024.Idx → α) (h : S1x512x1024.ShapeCasts S512x1024) (r : Fin 512) (d : Fin 1024) :
    shapeCast S512x1024 v h (ix2 r d) = v (ix3 (0 : Fin 1) r d) :=
  shapeCast_apply v h (ix2 r d) (ix3 (0 : Fin 1) r d) (by
    rw [Shape.rowMajor_val_two, Shape.rowMajor_val_three]
    show (0 * 512 + r.val) * 1024 + d.val = r.val * 1024 + d.val
    omega)

/-- The result with the unit axis put back, read at (0, r, d): the [512, 1024] value at (r, d). -/
theorem add_unit (v : S512x1024.Idx → α) (h : S512x1024.ShapeCasts S1x512x1024) (r : Fin 512) (d : Fin 1024) :
    shapeCast S1x512x1024 v h (ix3 (0 : Fin 1) r d) = v (ix2 r d) :=
  shapeCast_apply v h (ix3 (0 : Fin 1) r d) (ix2 r d) (by
    rw [Shape.rowMajor_val_two, Shape.rowMajor_val_three]
    show r.val * 1024 + d.val = (0 * 512 + r.val) * 1024 + d.val
    omega)

end Layout

section Pointwise
variable {s : Shape} {φ : FTy}
theorem exp_at (a : FVec Ideal s φ) (i : s.Idx) : exp a i = Ideal.exp (a i) := rfl
theorem divf_at (a b : FVec Ideal s φ) (i : s.Idx) : divf a b i = Ideal.div (a i) (b i) := rfl
end Pointwise

/-- THE BODY'S STORE at (0, r, d): the factored arithmetic of the sample there and of row entries (k, d), (k, 0) of the tables. -/
theorem body_at (X : Vec Ideal S1x512x1024 .f32) (M : Vec Ideal S8x1024 .f32) (P : Vec Ideal S8x1 .f32)
    (N C : Vec Ideal S8x1024 .f32) (r : Fin 512) (d : Fin 1024) :
    (k0_pay1 (k0_pay2 X) M (k0_pay3 P) (k0_pay4 N) (k0_pay5 C)
        (k0_pay18 (k0_pay2 X) M (k0_pay3 P) (k0_pay4 N) (k0_pay10 X M P N))
        (k0_pay19 (k0_pay2 X) M (k0_pay3 P) (k0_pay4 N) (k0_pay5 C) (k0_pay11 X M P N C))
        (k0_pay20 (k0_pay2 X) M) (k0_pay21 (k0_pay3 P)) (k0_pay22 (k0_pay2 X) M (k0_pay4 N))) (ix3 (0 : Fin 1) r d)
      = blockElt (fun k => P (ix2 k (0 : Fin 1))) (fun k => N (ix2 k d)) (fun k => M (ix2 k d)) (fun k => C (ix2 k d))
          (X (ix3 (0 : Fin 1) r d)) := by
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22,
    add_unit, drop_unit, shapeCast_self, row_spread, entry_spread, mulf_apply, addf_apply, subf_apply, divf_at, exp_at,
    broadcast_apply, blockElt, acc8]
  rfl

end Cert.PosteriorNorm

end
-- ==== Proof.Cover.lean ====
import proofs.«157584_j66735201845900_2_alg».proof.Proof.Gen.KernelIdeal.Frame
import Idealize.ShloMosaic.Lib.Pipeline.Value
import Idealize.ShloMosaic.Lib.ValueIdx

/-!
  The pipeline's geometry, point by point of the 4 × 4 grid.

  The four small windows (block = whole array) sit at block index (0, 0) at every point, so a block coordinate is the
  array coordinate. The sample window and the output window, both of block [1, 512, 1024] in a [4, 2048, 1024] array,
  have the same block index (b, l, 0) at every point, so they embed a block coordinate alike, and the last coordinate
  is carried over unchanged. Every index (b, r, d) of the output lies in the block of index (b, r / 512, 0), which is
  some point's, and every point writes its block back: the written blocks cover the output.

  A block's coordinate on an axis is (block index) × (block size) + 1 × (coordinate inside the block).
-/

noncomputable section

namespace Cert.PosteriorNorm

open Idealize.ShloMosaic Idealize.ShloMosaic.TcCoe Idealize.ShloMosaic.ValueIdx Idealize.SL.Sem Cert.KernelIdeal Cert.KernelIdeal.Gen

/-- The index maps, decided over the grid: the four small windows sit at block (0, 0) at every point; the sample
    window and the output window have the same block index, whose coordinates are below 4, below 4 and 0. -/
theorem idx_facts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_0.index t (0 : Fin 3) = win0_5.index t (0 : Fin 3)
    ∧ win0_0.index t (1 : Fin 3) = win0_5.index t (1 : Fin 3)
    ∧ win0_0.index t (2 : Fin 3) = win0_5.index t (2 : Fin 3)
    ∧ win0_5.index t (0 : Fin 3) ≤ 3 ∧ win0_5.index t (1 : Fin 3) ≤ 3 ∧ win0_5.index t (2 : Fin 3) = 0 :=
  (by decide +kernel : ∀ t : Fin grid0.N, _)

/-- Window 1's block is the whole [8, 1024] array: a block coordinate is the array's. -/
theorem emb_means (t : Fin cfg0.N) (z : S8x1024.Idx) : ((cfg0.win 1).blk t).view.emb z = z := by
  obtain ⟨e0, e1, -⟩ := idx_facts t
  funext a; apply Fin.ext
  match a with
  | ⟨0, _⟩ => show win0_1.index t (0 : Fin 2) * 8 + 1 * (z 0).val = (z 0).val; omega
  | ⟨1, _⟩ => show win0_1.index t (1 : Fin 2) * 1024 + 1 * (z 1).val = (z 1).val; omega

/-- Window 2's block is the whole [8, 1] array: a block coordinate is the array's. -/
theorem emb_weights (t : Fin cfg0.N) (z : S8x1.Idx) : ((cfg0.win 2).blk t).view.emb z = z := by
  obtain ⟨-, -, e0, e1, -⟩ := idx_facts t
  funext a; apply Fin.ext
  match a with
  | ⟨0, _⟩ => show win0_2.index t (0 : Fin 2) * 8 + 1 * (z 0).val = (z 0).val; omega
  | ⟨1, _⟩ => show win0_2.index t (1 : Fin 2) * 1 + 1 * (z 1).val = (z 1).val; omega

/-- Window 3's block is the whole [8, 1024] array: a block coordinate is the array's. -/
theorem emb_scale (t : Fin cfg0.N) (z : S8x1024.Idx) : ((cfg0.win 3).blk t).view.emb z = z := by
  obtain ⟨-, -, -, -, e0, e1, -⟩ := idx_facts t
  funext a; apply Fin.ext
  match a with
  | ⟨0, _⟩ => show win0_3.index t (0 : Fin 2) * 8 + 1 * (z 0).val = (z 0).val; omega
  | ⟨1, _⟩ => show win0_3.index t (1 : Fin 2) * 1024 + 1 * (z 1).val = (z 1).val; omega

/-- Window 4's block is the whole [8, 1024] array: a block coordinate is the array's. -/
theorem emb_coeff (t : Fin cfg0.N) (z : S8x1024.Idx) : ((cfg0.win 4).blk t).view.emb z = z := by
  obtain ⟨-, -, -, -, -, -, e0, e1, -⟩ := idx_facts t
  funext a; apply Fin.ext
  match a with
  | ⟨0, _⟩ => show win0_4.index t (0 : Fin 2) * 8 + 1 * (z 0).val = (z 0).val; omega
  | ⟨1, _⟩ => show win0_4.index t (1 : Fin 2) * 1024 + 1 * (z 1).val = (z 1).val; omega

/-- The sample window and the output window place a block coordinate at the same array index. -/
theorem emb_sample (t : Fin cfg0.N) (y : S1x512x1024.Idx) :
    ((cfg0.win 0).blk t).view.emb y = ((cfg0.win 5).blk t).view.emb y := by
  obtain ⟨-, -, -, -, -, -, -, -, e0, e1, e2, -⟩ := idx_facts t
  funext a; apply Fin.ext
  match a with
  | ⟨0, _⟩ => show win0_0.index t (0 : Fin 3) * 1 + 1 * (y 0).val = win0_5.index t (0 : Fin 3) * 1 + 1 * (y 0).val; omega
  | ⟨1, _⟩ => show win0_0.index t (1 : Fin 3) * 512 + 1 * (y 1).val = win0_5.index t (1 : Fin 3) * 512 + 1 * (y 1).val; omega
  | ⟨2, _⟩ => show win0_0.index t (2 : Fin 3) * 1024 + 1 * (y 2).val = win0_5.index t (2 : Fin 3) * 1024 + 1 * (y 2).val; omega

/-- The output block spans the whole last axis: the last coordinate is carried over unchanged. -/
theorem emb_lane (t : Fin cfg0.N) (y : S1x512x1024.Idx) : ((((cfg0.win 5).blk t).view.emb y) 2).val = (y 2).val := by
  obtain ⟨-, -, -, -, -, -, -, -, -, -, -, -, -, e2⟩ := idx_facts t
  show win0_5.index t (2 : Fin 3) * 1024 + 1 * (y 2).val = (y 2).val
  omega

/-- Every block index (q0, q1, 0) of the output, q0 and q1 below 4, is some point's. -/
theorem idx_onto : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- An index of the output array is in point t's block iff each coordinate is in the block's range on its axis. -/
theorem mem_blk (t : Fin cfg0.N) (i : S4x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v22).slice (win0_5.rect t)).set ↔ _
  rw [View.set_slice_whole, Rect.mem_set_unit]
  exact Iff.rfl

/-- Every index (b, r, d) of the output is in the block of index (b, r / 512, 0), at a point that writes it back. -/
theorem cover (i : S4x2048x1024.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

end Cert.PosteriorNorm

end
-- ==== Proof.KernelArray.lean ====
/-
  The kernel's whole output array.

  Grid point t stores into block t of the output what the body computes from block t of the sample array and the four
  whole tables; that is block t of ONE function of the arrays the region finds (the element at (b, l, d) is the body's
  arithmetic of the sample at (b, l, d) and the tables' entries (k, d), (k, 0)); the sixteen blocks tile the array, so the
  array ends holding that function.
-/
import proofs.«157584_j66735201845900_2_alg».proof.Proof.BodyValue
import proofs.«157584_j66735201845900_2_alg».proof.Proof.Cover
import proofs.«157584_j66735201845900_2_alg».proof.Proof.Gen.KernelIdeal.Frame
import Idealize.ShloMosaic.Lib.Pipeline.Value

noncomputable section

namespace Cert.PosteriorNorm

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The output array as one function of the sample array x, the means mu, the weights p, the exponent scales n and the
    coefficients c: at (b, l, d) the body's arithmetic of x there and of column d of the tables. -/
def blockwise (x : S4x2048x1024.Idx → EReal) (mu : S8x1024.Idx → EReal) (p : S8x1.Idx → EReal) (n c : S8x1024.Idx → EReal) :
    S4x2048x1024.Idx → EReal :=
  fun i => blockElt (fun k => p (ix2 k (0 : Fin 1))) (fun k => n (ix2 k (⟨(i 2).val, (i 2).isLt⟩ : Fin 1024)))
    (fun k => mu (ix2 k (⟨(i 2).val, (i 2).isLt⟩ : Fin 1024))) (fun k => c (ix2 k (⟨(i 2).val, (i 2).isLt⟩ : Fin 1024))) (x i)

theorem blockwise_at (x : S4x2048x1024.Idx → EReal) (mu : S8x1024.Idx → EReal) (p : S8x1.Idx → EReal) (n c : S8x1024.Idx → EReal)
    (i : S4x2048x1024.Idx) (d : Fin 1024) (hd : (i 2).val = d.val) :
    blockwise x mu p n c i
      = blockElt (fun k => p (ix2 k (0 : Fin 1))) (fun k => n (ix2 k d)) (fun k => mu (ix2 k d)) (fun k => c (ix2 k d)) (x i) := by
  have e : (⟨(i 2).val, (i 2).isLt⟩ : Fin 1024) = d := Fin.ext hd
  unfold blockwise
  rw [e]

theorem hz3 : (![0, 0, 0] : Fin 3 → Nat) = fun _ => 0 := funext fun a => by fin_cases a <;> rfl
theorem hz2 : (![0, 0] : Fin 2 → Nat) = fun _ => 0 := funext fun a => by fin_cases a <;> rfl

/-- A block of one of the four small tables, read at an entry, is the table the region finds, read there. -/
theorem iblk_means (c : Dev nD) (t : Fin cfg0.N) (z : S8x1024.Idx) :
    iblk m c 1 t z = V m c (Pipeline.arrRef spec0 1) z := by
  unfold iblk
  rw [View.read_apply]
  show V m c (Pipeline.arrRef spec0 1) _ = V m c (Pipeline.arrRef spec0 1) _
  exact congrArg (V m c (Pipeline.arrRef spec0 1)) (emb_means t z)

theorem iblk_weights (c : Dev nD) (t : Fin cfg0.N) (z : S8x1.Idx) :
    iblk m c 2 t z = V m c (Pipeline.arrRef spec0 2) z := by
  unfold iblk
  rw [View.read_apply]
  show V m c (Pipeline.arrRef spec0 2) _ = V m c (Pipeline.arrRef spec0 2) _
  exact congrArg (V m c (Pipeline.arrRef spec0 2)) (emb_weights t z)

theorem iblk_scale (c : Dev nD) (t : Fin cfg0.N) (z : S8x1024.Idx) :
    iblk m c 3 t z = V m c (Pipeline.arrRef spec0 3) z := by
  unfold iblk
  rw [View.read_apply]
  show V m c (Pipeline.arrRef spec0 3) _ = V m c (Pipeline.arrRef spec0 3) _
  exact congrArg (V m c (Pipeline.arrRef spec0 3)) (emb_scale t z)

theorem iblk_coeff (c : Dev nD) (t : Fin cfg0.N) (z : S8x1024.Idx) :
    iblk m c 4 t z = V m c (Pipeline.arrRef spec0 4) z := by
  unfold iblk
  rw [View.read_apply]
  show V m c (Pipeline.arrRef spec0 4) _ = V m c (Pipeline.arrRef spec0 4) _
  exact congrArg (V m c (Pipeline.arrRef spec0 4)) (emb_coeff t z)

/-- The sample block of point t, read at an entry, is the sample array read where the output block of point t puts that entry. -/
theorem iblk_sample (c : Dev nD) (t : Fin cfg0.N) (y : S1x512x1024.Idx) :
    iblk m c 0 t y = V m c (Pipeline.arrRef spec0 0) (((cfg0.win 5).blk t).view.emb y) := by
  unfold iblk
  rw [View.read_apply]
  show V m c (Pipeline.arrRef spec0 0) _ = V m c (Pipeline.arrRef spec0 0) _
  exact congrArg (V m c (Pipeline.arrRef spec0 0)) (emb_sample t y)

/-- WHAT POINT t WRITES BACK is block t of that function of the arrays as the region finds them. -/
theorem flushed_eq (c : Dev nD) (t : Fin cfg0.N) :
    (dats m 0 c).flushed 5 t = ((cfg0.win 5).blk t).view.read (Elt Ideal)
      (blockwise (V m c (Pipeline.arrRef spec0 0)) (V m c (Pipeline.arrRef spec0 1)) (V m c (Pipeline.arrRef spec0 2))
        (V m c (Pipeline.arrRef spec0 3)) (V m c (Pipeline.arrRef spec0 4))) := by
  show (cfg0.win 5).cut (grid0.coords t) ((dats m 0 c).after 5 t) = _
  rw [after0_5]
  unfold out0_5
  rw [View.canon_unit_zero hz3]
  simp only [View.ld_unit_zero (S := S1x512x1024) hz3, View.ld_unit_zero (S := S8x1024) hz2, View.ld_unit_zero (S := S8x1) hz2]
  refine funext fun (y : S1x512x1024.Idx) => ?_
  obtain ⟨r, d, rfl⟩ : ∃ (r : Fin 512) (d : Fin 1024), y = ix3 (0 : Fin 1) r d :=
    ⟨y 1, y 2, by
      have h0 : y 0 = (0 : Fin 1) := Fin.ext (by have h : (y 0).val < 1 := (y 0).isLt; show (y 0).val = 0; omega)
      rw [← h0]; exact eq_ix3 y⟩
  refine (body_at (iblk m c 0 t) (iblk m c 1 t) (iblk m c 2 t) (iblk m c 3 t) (iblk m c 4 t) r d).trans ?_
  show _ = blockwise (V m c (Pipeline.arrRef spec0 0)) (V m c (Pipeline.arrRef spec0 1)) (V m c (Pipeline.arrRef spec0 2))
        (V m c (Pipeline.arrRef spec0 3)) (V m c (Pipeline.arrRef spec0 4))
    (((cfg0.win 5).blk t).view.emb (ix3 (0 : Fin 1) r d))
  rw [blockwise_at _ _ _ _ _ _ d (emb_lane t (ix3 (0 : Fin 1) r d))]
  exact congr (congr (congr (congr (congrArg blockElt (funext fun k => iblk_weights m c t _)) (funext fun k => iblk_scale m c t _))
    (funext fun k => iblk_means m c t _)) (funext fun k => iblk_coeff m c t _)) (iblk_sample m c t _)

/-- THE ARRAY after the run is that function of the arrays the region finds. -/
theorem array_eq (c : Dev nD) :
    (dats m 0 c).arrAt 5 cfg0.N
      = blockwise (V m c (Pipeline.arrRef spec0 0)) (V m c (Pipeline.arrRef spec0 1)) (V m c (Pipeline.arrRef spec0 2))
        (V m c (Pipeline.arrRef spec0 3)) (V m c (Pipeline.arrRef spec0 4)) :=
  (dats m 0 c).arrAt_eq_of_cover 5 _ (fun t _ => flushed_eq m c t) cover

/-- The kernel's run, with its result array named and its arguments unchanged. -/
theorem kernel_run : θ_run defs (onTc (τ := τ) (main (F := Ideal))) ⟨m, fun _ => 0, ρ⟩ fun r => ∀ c : Dev nD,
      r.2.mem ((c : Thread nD τ).loc main_v22)
        = blockwise (V m c (Pipeline.arrRef spec0 0)) (V m c (Pipeline.arrRef spec0 1)) (V m c (Pipeline.arrRef spec0 2))
        (V m c (Pipeline.arrRef spec0 3)) (V m c (Pipeline.arrRef spec0 4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (array_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.PosteriorNorm

end
-- ==== Proof.KernelTables.lean ====
/-
  The three small tables the kernel's region finds, as functions of the argument arrays.

  Before the region the program computes, from the spread argument, the softplus table σ; from the prior argument, the
  softmax column π; and from these the exponent scale −½ / (σ + ε) and the coefficient (π + ε)^(−½) · (σ + ε)^(−½) spread
  over the 1024 lanes. The softplus and the softmax are the same operations the reference applies, so they are named by
  the reference's stages and never opened here.
-/
import proofs.«157584_j66735201845900_2_alg».proof.Proof.Spec
import proofs.«157584_j66735201845900_2_alg».proof.Proof.Gen.KernelIdeal.Frame
import proofs.«157584_j66735201845900_2_alg».proof.Proof.Gen.ReferenceIdeal.Read
import Idealize.ShloMosaic.Lib.StableHlo.Run
import Idealize.ShloMosaic.Lib.Pipeline.Value
import Idealize.ShloMosaic.Lib.ValueIdx

noncomputable section

namespace Cert.PosteriorNorm

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The weights the region finds are the softmax column of the prior argument. -/
theorem table_pi (c : Dev nD) :
    (V m c main_v15 : S8x1.Idx → EReal)
      = Cert.ReferenceIdeal.Read.val_main_v11 (F := Ideal) (m ((c.tc : Thread nD τ).loc main_arg3)) := by
  dsimp only [V]
  simp only [hostOps0, hostOps0_1, List.flatten_cons, List.flatten_nil, List.append_nil, List.cons_append, List.nil_append]
  after_results_simp
  rfl

/-- The exponent scale the region finds, at (k, d): −½ divided by the softplus table there plus ε. -/
theorem table_scale_at (c : Dev nD) (k : Fin 8) (d : Fin 1024) :
    (V m c main_v4 : S8x1024.Idx → EReal) (ix2 k d)
      = Ideal.div negHalf (Cert.ReferenceIdeal.Read.val_main_v0 (F := Ideal) (m ((c.tc : Thread nD τ).loc main_arg2)) (ix2 k d) + eps) := by
  dsimp only [V]
  simp only [hostOps0, hostOps0_1, List.flatten_cons, List.flatten_nil, List.append_nil, List.cons_append, List.nil_append]
  after_results_simp
  rfl

/-- The coefficient the region finds, at (k, d): the reciprocal square root of the softmax entry k plus ε, times that of the
    softplus table at (k, d) plus ε. -/
theorem table_coeff_at (c : Dev nD) (k : Fin 8) (d : Fin 1024) :
    (V m c main_v21 : S8x1024.Idx → EReal) (ix2 k d)
      = Ideal.rsqrt (Cert.ReferenceIdeal.Read.val_main_v11 (F := Ideal) (m ((c.tc : Thread nD τ).loc main_arg3)) (ix2 k (0 : Fin 1)) + eps)
        * Ideal.rsqrt (Cert.ReferenceIdeal.Read.val_main_v0 (F := Ideal) (m ((c.tc : Thread nD τ).loc main_arg2)) (ix2 k d) + eps) := by
  dsimp only [V]
  simp only [hostOps0, hostOps0_1, List.flatten_cons, List.flatten_nil, List.append_nil, List.cons_append, List.nil_append]
  after_results_simp
  rw [mulf_apply]
  rw [broadcastInDim_apply _ Facts₀.bcast_S8x1_S8x1024_0_1 _ (ix2 k d) (ix2 k (0 : Fin 1)) (fun a => by
    match a with
    | ⟨0, _⟩ => show k.val = if (8 : Nat) = 1 then 0 else k.val; rw [if_neg (by decide)]
    | ⟨1, _⟩ => show 0 = if (1 : Nat) = 1 then 0 else d.val; rw [if_pos rfl])]
  rfl

end Cert.PosteriorNorm

end
-- ==== Proof.ReferenceRead.lean ====
/-
  The reference's result, one output element at a time.

  At an output index i = (b, l, d) the reference's last stage is a sum over the eight components k of the termwise
  quotient; every operand of that quotient is one entry of an argument array or of one of the two small tables
  (the softmax column π and the softplus table σ), read where the broadcasts of the program put it:
  the sample at (b, l, d), the mean and σ at (k, d), π at (k, 0). The normaliser inside each quotient is the same
  sum over the components at the same (b, l, d).
-/
import proofs.«157584_j66735201845900_2_alg».proof.Proof.Spec
import proofs.«157584_j66735201845900_2_alg».proof.Proof.Gen.ReferenceIdeal.Read

noncomputable section

namespace Cert.PosteriorNorm

open Idealize.ShloMosaic Idealize.ShloMosaic.TcCoe Idealize.ShloMosaic.ValueIdx Cert.ReferenceIdeal Cert.ReferenceIdeal.Read

variable (x0 : (⟨S4x2048x1024, .f32⟩ : BufTy).Contents (Elt Ideal)) (x1 x2 : (⟨S8x1024, .f32⟩ : BufTy).Contents (Elt Ideal))
  (x3 : (⟨S8x1, .f32⟩ : BufTy).Contents (Elt Ideal))

/-- The softmax column, component by component. -/
def piCol : Fin 8 → EReal := fun k => val_main_v11 (F := Ideal) x3 (ix2 k (0 : Fin 1))
/-- The softplus table's column d, component by component. -/
def sigmaCol (d : Fin 1024) : Fin 8 → EReal := fun k => val_main_v0 (F := Ideal) x2 (ix2 k d)
/-- The means' column d, component by component. -/
def muCol (d : Fin 1024) : Fin 8 → EReal := fun k => x1 (ix2 k d)

/-- The unnormalised posterior stage at (k, b, l, d). -/
theorem posterior_at (k : Fin 8) (b : Fin 4) (l : Fin 2048) (d : Fin 1024) :
    val_main_v28 (F := Ideal) x0 x1 x2 x3 (ix4 k b l d)
      = wTermwise (piCol x3) (sigmaCol x2 d) (muCol x1 d) (x0 (ix3 b l d)) k := by
  rw [val_main_v28_apply, val_main_v27_apply, val_main_v12_apply, val_main_v26_apply, val_main_v25_apply,
    val_main_v21_apply, val_main_v20_apply, val_main_v19_apply, val_main_cst_2_apply, val_main_v18_apply,
    val_main_v16_apply, val_main_v14_apply, val_main_v17_apply, val_main_v15_apply, val_main_v24_apply,
    val_main_v23_apply, val_main_v13_apply, val_main_v22_apply, val_main_cst_3_apply]
  have e1 : idx_main_v14 (idx_main_v16 (ix4 k b l d)) = ix3 b l d :=
    funext fun a => by match a with | ⟨0, _⟩ => rfl | ⟨1, _⟩ => rfl | ⟨2, _⟩ => rfl
  have e2 : idx_main_v15 (idx_main_v17 (ix4 k b l d)) = ix2 k d :=
    funext fun a => by match a with | ⟨0, _⟩ => rfl | ⟨1, _⟩ => rfl
  have e3 : idx_main_v13 (idx_main_v24 (ix4 k b l d)) = ix2 k d :=
    funext fun a => by match a with | ⟨0, _⟩ => rfl | ⟨1, _⟩ => rfl
  have e4 : idx_main_v12 (idx_main_v27 (ix4 k b l d)) = ix2 k (0 : Fin 1) :=
    funext fun a => by match a with | ⟨0, _⟩ => rfl | ⟨1, _⟩ => rfl
  rw [e1, e2, e3, e4]
  rfl

/-- The normaliser stage (before ε is added) at (b, l, d): zero plus the eight posteriors. -/
theorem normaliser_at (b : Fin 4) (l : Fin 2048) (d : Fin 1024) :
    val_main_v29 (F := Ideal) x0 x1 x2 x3 (ix3 b l d)
      = zero + ∑ j : Fin 8, wTermwise (piCol x3) (sigmaCol x2 d) (muCol x1 d) (x0 (ix3 b l d)) j := by
  rw [val_main_v29_apply]
  refine congrArg (zero + ·) (Finset.sum_congr rfl fun j _ => ?_)
  have e : idx_main_v29 (ix3 b l d) j = ix4 j b l d :=
    funext fun a => by match a with | ⟨0, _⟩ => rfl | ⟨1, _⟩ => rfl | ⟨2, _⟩ => rfl | ⟨3, _⟩ => rfl
  rw [e, posterior_at]

/-- The last elementwise stage at (k, b, l, d): the termwise quotient of component k. -/
theorem quotient_at (k : Fin 8) (b : Fin 4) (l : Fin 2048) (d : Fin 1024) :
    val_main_v45 (F := Ideal) x0 x1 x2 x3 (ix4 k b l d)
      = Ideal.div (Ideal.div (Ideal.div (wTermwise (piCol x3) (sigmaCol x2 d) (muCol x1 d) (x0 (ix3 b l d)) k)
            ((zero + ∑ j : Fin 8, wTermwise (piCol x3) (sigmaCol x2 d) (muCol x1 d) (x0 (ix3 b l d)) j) + eps))
          (Ideal.sqrt (piCol x3 k + eps)) * (x0 (ix3 b l d) - muCol x1 d k)) (Ideal.sqrt (sigmaCol x2 d k + eps)) := by
  rw [val_main_v45_apply, val_main_v40_apply, val_main_v39_apply, val_main_v34_apply, posterior_at,
    val_main_v33_apply, val_main_v32_apply, val_main_v31_apply, val_main_v30_apply, val_main_cst_5_apply,
    val_main_v38_apply, val_main_v37_apply, val_main_v36_apply, val_main_v12_apply, val_main_v35_apply,
    val_main_cst_6_apply, val_main_v18_apply, val_main_v16_apply, val_main_v14_apply, val_main_v17_apply,
    val_main_v15_apply, val_main_v44_apply, val_main_v43_apply, val_main_v42_apply, val_main_v13_apply,
    val_main_v41_apply, val_main_cst_7_apply]
  have e0 : idx_main_v32 (idx_main_v33 (ix4 k b l d)) = ix3 b l d :=
    funext fun a => by match a with | ⟨0, _⟩ => rfl | ⟨1, _⟩ => rfl | ⟨2, _⟩ => rfl
  have e1 : idx_main_v14 (idx_main_v16 (ix4 k b l d)) = ix3 b l d :=
    funext fun a => by match a with | ⟨0, _⟩ => rfl | ⟨1, _⟩ => rfl | ⟨2, _⟩ => rfl
  have e2 : idx_main_v15 (idx_main_v17 (ix4 k b l d)) = ix2 k d :=
    funext fun a => by match a with | ⟨0, _⟩ => rfl | ⟨1, _⟩ => rfl
  have e3 : idx_main_v13 (idx_main_v44 (ix4 k b l d)) = ix2 k d :=
    funext fun a => by match a with | ⟨0, _⟩ => rfl | ⟨1, _⟩ => rfl
  have e4 : idx_main_v12 (idx_main_v38 (ix4 k b l d)) = ix2 k (0 : Fin 1) :=
    funext fun a => by match a with | ⟨0, _⟩ => rfl | ⟨1, _⟩ => rfl
  rw [e0, e1, e2, e3, e4, normaliser_at]
  rfl

/-- THE REFERENCE'S RESULT at (b, l, d) is the termwise arrangement of the eight components' columns. -/
theorem reference_at (b : Fin 4) (l : Fin 2048) (d : Fin 1024) :
    val_main_v46 (F := Ideal) x0 x1 x2 x3 (ix3 b l d)
      = termwise (piCol x3) (sigmaCol x2 d) (muCol x1 d) (x0 (ix3 b l d)) := by
  rw [val_main_v46_apply]
  unfold termwise
  refine congrArg (zero + ·) (Finset.sum_congr rfl fun k _ => ?_)
  have e : idx_main_v46 (ix3 b l d) k = ix4 k b l d :=
    funext fun a => by match a with | ⟨0, _⟩ => rfl | ⟨1, _⟩ => rfl | ⟨2, _⟩ => rfl | ⟨3, _⟩ => rfl
  rw [e, quotient_at]

end Cert.PosteriorNorm

end
-- ==== Proof.Law.lean ====
/-
  The algebraic law between the two arrangements of the posterior-weighted sum, at real arguments.

  With π k ≥ 0, σ k ≥ 0 and ε > 0 every denominator (σ k + ε, √(π k + ε), √(σ k + ε), Σ w + ε) is a positive real, so
  each quotient is the real quotient, each reciprocal square root the real (√r)⁻¹, and both arrangements are coercions
  of real expressions. The two exponents agree, (−½ / v) · d · d = (−½ · d · d) / v, so both arrangements share one real
  weight w k = π k · exp(−½ d² / (σ k + ε)); and then
      (Σ_k w k · ((√a k)⁻¹ · (√b k)⁻¹ · d k)) · (1 / (Σ w + ε))  =  Σ_k w k / (Σ w + ε) / √a k · d k / √b k
  (a k = π k + ε, b k = σ k + ε, d k the deviation) term by term; in the reals this needs no nonzero hypothesis, a
  quotient being the product with the inverse whatever the divisor.
-/
import proofs.«157584_j66735201845900_2_alg».proof.Proof.Spec
import Mathlib.Tactic

noncomputable section

namespace Cert.PosteriorNorm

open Idealize.ShloMosaic

/-! ### The four constants -/

/-- The all-zero word is 0. -/
theorem zero_eq : zero = 0 := by
  simp [zero, Ideal.ofBits, Ideal.ieee]

/-- Exponent field 127, zero fraction: 1. -/
theorem one_eq : one = ((1 : ℝ) : EReal) := by
  simp [one, Ideal.ofBits, Ideal.ieee, -EReal.coe_mul]; norm_num

/-- Sign set, exponent field 126, zero fraction: −1/2. -/
theorem negHalf_eq : negHalf = ((-(1/2) : ℝ) : EReal) := by
  simp [negHalf, Ideal.ofBits, Ideal.ieee, -EReal.coe_mul, -EReal.coe_neg]; norm_num

/-- ε is a positive real (a normal number with the sign bit clear); its exact value is not needed. -/
theorem eps_pos : ∃ e : ℝ, 0 < e ∧ eps = (e : EReal) := by
  simp [eps, Ideal.ofBits, Ideal.ieee, -EReal.coe_mul]

/-! ### The operations at positive reals -/

/-- Division of a real by a nonzero real is the real quotient. -/
theorem div_coe_coe (x y : ℝ) (hy : y ≠ 0) : Ideal.div (x : EReal) (y : EReal) = ((x / y : ℝ) : EReal) := by
  rw [Ideal.div_coe hy, ← EReal.coe_mul]
  congr 1
  ring

/-- The reciprocal square root of a positive real. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The square root of a positive real. -/
theorem sqrt_coe_pos (r : ℝ) (hr : 0 < r) : Ideal.sqrt (r : EReal) = ((Real.sqrt r : ℝ) : EReal) := by
  rw [Ideal.sqrt_coe, if_neg (not_lt.mpr hr.le)]

/-- A sum of eight reals, taken on the extended reals, is the real sum. -/
theorem coe_sum8 (g : Fin 8 → ℝ) : ∑ k : Fin 8, (g k : EReal) = ((∑ k : Fin 8, g k : ℝ) : EReal) := by
  rw [Fin.sum_univ_eight, Fin.sum_univ_eight]
  simp only [EReal.coe_add]

/-- Eight reals added one after the other onto zero give the real sum. -/
theorem acc8_coe (g : Fin 8 → ℝ) : acc8 (fun k => (g k : EReal)) = ((∑ k : Fin 8, g k : ℝ) : EReal) := by
  rw [acc8, zero_eq, zero_add, Fin.sum_univ_eight]
  simp only [EReal.coe_add]

/-! ### The common weight -/

/-- The posterior weight of one component as a real: π · exp(−½ d² / (σ + ε)). -/
def wReal (e : ℝ) (q s μ : Fin 8 → ℝ) (ξ : ℝ) (k : Fin 8) : ℝ :=
  q k * Real.exp (-(1/2) * (ξ - μ k) * (ξ - μ k) / (s k + e))

/-- The factored weight is the real weight: (−½ / v) · d · d = −½ · d · d / v. -/
theorem wFactored_coe (e : ℝ) (he0 : 0 < e) (he : eps = (e : EReal)) (q s μ : Fin 8 → ℝ) (ξ : ℝ)
    (hs : ∀ k, 0 ≤ s k) (k : Fin 8) :
    wFactored (fun k => (q k : EReal)) (fun k => (s k : EReal)) (fun k => (μ k : EReal)) (ξ : EReal) k
      = (wReal e q s μ ξ k : EReal) := by
  have hpos : s k + e ≠ 0 := (add_pos_of_nonneg_of_pos (hs k) he0).ne'
  simp only [wFactored, wReal]
  rw [he, negHalf_eq, ← EReal.coe_add, div_coe_coe _ _ hpos, ← EReal.coe_sub, ← EReal.coe_mul, ← EReal.coe_mul,
    Ideal.exp_coe, ← EReal.coe_mul]
  congr 3
  ring

/-- The termwise weight is the real weight. -/
theorem wTermwise_coe (e : ℝ) (he0 : 0 < e) (he : eps = (e : EReal)) (q s μ : Fin 8 → ℝ) (ξ : ℝ)
    (hs : ∀ k, 0 ≤ s k) (k : Fin 8) :
    wTermwise (fun k => (q k : EReal)) (fun k => (s k : EReal)) (fun k => (μ k : EReal)) (ξ : EReal) k
      = (wReal e q s μ ξ k : EReal) := by
  have hpos : s k + e ≠ 0 := (add_pos_of_nonneg_of_pos (hs k) he0).ne'
  simp only [wTermwise, wReal]
  rw [he, negHalf_eq, ← EReal.coe_add, ← EReal.coe_sub, ← EReal.coe_mul, ← EReal.coe_mul, div_coe_coe _ _ hpos,
    Ideal.exp_coe, ← EReal.coe_mul]

/-- The real weight is not negative. -/
theorem wReal_nonneg (e : ℝ) (q s μ : Fin 8 → ℝ) (ξ : ℝ) (hq : ∀ k, 0 ≤ q k) (k : Fin 8) :
    0 ≤ wReal e q s μ ξ k :=
  mul_nonneg (hq k) (Real.exp_pos _).le

/-! ### The two arrangements as reals, and the law -/

/-- The real identity behind the law: the sum divided once by the normaliser, or each term divided by it. -/
theorem real_law (W A B d : Fin 8 → ℝ) (e : ℝ) :
    (∑ k : Fin 8, W k * ((A k)⁻¹ * (B k)⁻¹ * d k)) * (1 / (∑ k : Fin 8, W k + e))
      = ∑ k : Fin 8, W k / (∑ j : Fin 8, W j + e) / A k * d k / B k := by
  rw [Finset.sum_mul]
  refine Finset.sum_congr rfl fun k _ => ?_
  ring

/-- The factored arrangement is the coercion of a real: the normaliser Σ w + ε is positive. -/
theorem factored_coe (e : ℝ) (he0 : 0 < e) (he : eps = (e : EReal)) (q s μ : Fin 8 → ℝ) (ξ : ℝ)
    (hq : ∀ k, 0 ≤ q k) (hs : ∀ k, 0 ≤ s k) :
    factored (fun k => (q k : EReal)) (fun k => (s k : EReal)) (fun k => (μ k : EReal)) (ξ : EReal)
      = (((∑ k : Fin 8, wReal e q s μ ξ k * ((Real.sqrt (q k + e))⁻¹ * (Real.sqrt (s k + e))⁻¹ * (ξ - μ k)))
          * (1 / (∑ k : Fin 8, wReal e q s μ ξ k + e)) : ℝ) : EReal) := by
  have hS : (∑ k : Fin 8, wReal e q s μ ξ k) + e ≠ 0 :=
    (add_pos_of_nonneg_of_pos (Finset.sum_nonneg fun k _ => wReal_nonneg e q s μ ξ hq k) he0).ne'
  have hqe : ∀ k, 0 < q k + e := fun k => add_pos_of_nonneg_of_pos (hq k) he0
  have hse : ∀ k, 0 < s k + e := fun k => add_pos_of_nonneg_of_pos (hs k) he0
  have h1 : ∀ k : Fin 8,
      wFactored (fun k => (q k : EReal)) (fun k => (s k : EReal)) (fun k => (μ k : EReal)) (ξ : EReal) k
        * (Ideal.rsqrt ((q k : EReal) + eps) * Ideal.rsqrt ((s k : EReal) + eps) * ((ξ : EReal) - (μ k : EReal)))
      = ((wReal e q s μ ξ k * ((Real.sqrt (q k + e))⁻¹ * (Real.sqrt (s k + e))⁻¹ * (ξ - μ k)) : ℝ) : EReal) := by
    intro k
    rw [wFactored_coe e he0 he q s μ ξ hs k, he, ← EReal.coe_add, ← EReal.coe_add, rsqrt_coe_pos _ (hqe k),
      rsqrt_coe_pos _ (hse k), ← EReal.coe_sub, ← EReal.coe_mul, ← EReal.coe_mul, ← EReal.coe_mul]
  have h2 : wFactored (fun k => (q k : EReal)) (fun k => (s k : EReal)) (fun k => (μ k : EReal)) (ξ : EReal)
      = fun k => (wReal e q s μ ξ k : EReal) := funext (wFactored_coe e he0 he q s μ ξ hs)
  simp only [factored, h1]
  rw [h2, acc8_coe, acc8_coe, he, ← EReal.coe_add, one_eq, div_coe_coe _ _ hS, ← EReal.coe_mul]

/-- The termwise arrangement is the coercion of a real. -/
theorem termwise_coe (e : ℝ) (he0 : 0 < e) (he : eps = (e : EReal)) (q s μ : Fin 8 → ℝ) (ξ : ℝ)
    (hq : ∀ k, 0 ≤ q k) (hs : ∀ k, 0 ≤ s k) :
    termwise (fun k => (q k : EReal)) (fun k => (s k : EReal)) (fun k => (μ k : EReal)) (ξ : EReal)
      = ((∑ k : Fin 8, wReal e q s μ ξ k / (∑ j : Fin 8, wReal e q s μ ξ j + e) / Real.sqrt (q k + e) * (ξ - μ k)
          / Real.sqrt (s k + e) : ℝ) : EReal) := by
  have hS : (∑ k : Fin 8, wReal e q s μ ξ k) + e ≠ 0 :=
    (add_pos_of_nonneg_of_pos (Finset.sum_nonneg fun k _ => wReal_nonneg e q s μ ξ hq k) he0).ne'
  have hqe : ∀ k, 0 < q k + e := fun k => add_pos_of_nonneg_of_pos (hq k) he0
  have hse : ∀ k, 0 < s k + e := fun k => add_pos_of_nonneg_of_pos (hs k) he0
  have hk : ∀ k : Fin 8,
      Ideal.div (Ideal.div (Ideal.div ((wReal e q s μ ξ k : ℝ) : EReal)
          (((∑ j : Fin 8, wReal e q s μ ξ j : ℝ) : EReal) + (e : EReal)))
        (Ideal.sqrt ((q k : EReal) + (e : EReal))) * ((ξ : EReal) - (μ k : EReal)))
        (Ideal.sqrt ((s k : EReal) + (e : EReal)))
      = ((wReal e q s μ ξ k / (∑ j : Fin 8, wReal e q s μ ξ j + e) / Real.sqrt (q k + e) * (ξ - μ k)
          / Real.sqrt (s k + e) : ℝ) : EReal) := by
    intro k
    rw [← EReal.coe_add, ← EReal.coe_add, ← EReal.coe_add, div_coe_coe _ _ hS, sqrt_coe_pos _ (hqe k),
      sqrt_coe_pos _ (hse k), div_coe_coe _ _ (Real.sqrt_pos.mpr (hqe k)).ne', ← EReal.coe_sub, ← EReal.coe_mul,
      div_coe_coe _ _ (Real.sqrt_pos.mpr (hse k)).ne']
  simp only [termwise, wTermwise_coe e he0 he q s μ ξ hs, coe_sum8, zero_eq, zero_add, he, hk]

/-- The law: at real arguments with π ≥ 0 and σ ≥ 0 the two arrangements are the same extended real. -/
theorem factored_eq_termwise (q s μ : Fin 8 → ℝ) (ξ : ℝ) (hq : ∀ k, 0 ≤ q k) (hs : ∀ k, 0 ≤ s k) :
    factored (fun k => (q k : EReal)) (fun k => (s k : EReal)) (fun k => (μ k : EReal)) (ξ : EReal)
      = termwise (fun k => (q k : EReal)) (fun k => (s k : EReal)) (fun k => (μ k : EReal)) (ξ : EReal) := by
  obtain ⟨e, he0, he⟩ := eps_pos
  rw [factored_coe e he0 he q s μ ξ hq hs, termwise_coe e he0 he q s μ ξ hq hs]
  congr 1
  exact real_law (wReal e q s μ ξ) (fun k => Real.sqrt (q k + e)) (fun k => Real.sqrt (s k + e)) (fun k => ξ - μ k) e

/-- The law for arguments only known to be real: π k and σ k real and not negative, μ k and the sample real. -/
theorem factored_eq_termwise_of_real (pr sp mu : Fin 8 → EReal) (x : EReal)
    (hpr : ∀ k, ∃ q : ℝ, 0 ≤ q ∧ pr k = (q : EReal)) (hsp : ∀ k, ∃ s : ℝ, 0 ≤ s ∧ sp k = (s : EReal))
    (hmu : ∀ k, ∃ r : ℝ, mu k = (r : EReal)) (hx : ∃ r : ℝ, x = (r : EReal)) :
    factored pr sp mu x = termwise pr sp mu x := by
  choose q hq hprq using hpr
  choose s hs hsps using hsp
  choose μ hmuμ using hmu
  obtain ⟨ξ, rfl⟩ := hx
  have e1 : pr = fun k => (q k : EReal) := funext hprq
  have e2 : sp = fun k => (s k : EReal) := funext hsps
  have e3 : mu = fun k => (μ k : EReal) := funext hmuμ
  rw [e1, e2, e3]
  exact factored_eq_termwise q s μ ξ hq hs

end Cert.PosteriorNorm

end
-- ==== Proof.Tables.lean ====
import proofs.«157584_j66735201845900_2_alg».proof.Proof.Gen.ReferenceIdeal.Read
import Idealize.ShloMosaic.PureOps.Ideal
import Idealize.ShloMosaic.Lib.ValueIdx
import Idealize.ShloMosaic.PureOps.Ideal.Laws

/-! Two small tables computed from real inputs are real and not negative: the elementwise softplus
    max r 0 + log (1 + exp (−|r|)) of an array of reals, and the softmax exp (r − m) / Σ exp (r − m) of eight reals,
    m their maximum. -/

noncomputable section

namespace Cert.PosteriorNorm

open Idealize.ShloMosaic Cert.ReferenceIdeal Cert.ReferenceIdeal.Read

namespace Tables

/-- The inclusion of the reals in the extended reals is monotone, so it commutes with the maximum of two numbers. -/
theorem coe_max_ereal (a b : ℝ) : ((max a b : ℝ) : EReal) = max (a : EReal) (b : EReal) :=
  EReal.coe_strictMono.monotone.map_max

/-- A finite sum of real numbers, taken in the extended reals, is the real sum. -/
theorem sum_coe_ereal {ι : Type} (s : Finset ι) (f : ι → ℝ) :
    ∑ k ∈ s, ((f k : ℝ) : EReal) = ((∑ k ∈ s, f k : ℝ) : EReal) := by
  classical
  refine Finset.induction_on s (by simp) fun a t ha ih => ?_
  rw [Finset.sum_insert ha, Finset.sum_insert ha, ih, EReal.coe_add]

/-- The maximum folded from −∞ over a nonempty finite family of real numbers is one of them, hence a real number. -/
theorem fold_max_bot_real {n : Nat} (hn : 0 < n) (g : Fin n → EReal) (hg : ∀ k, ∃ r : ℝ, g k = (r : EReal)) :
    ∃ m : ℝ, (Finset.univ : Finset (Fin n)).fold max (⊥ : EReal) g = (m : EReal) := by
  have hne : (Finset.univ : Finset (Fin n)).Nonempty := ⟨⟨0, hn⟩, Finset.mem_univ _⟩
  obtain ⟨k, -, hk⟩ := Finset.exists_mem_eq_sup Finset.univ hne g
  obtain ⟨r, hr⟩ := hg k
  exact ⟨r, by rw [← hr, ← hk]; rfl⟩

/-- The word 0xFF800000 denotes −∞. -/
theorem ofBits_neg_inf : FloatOps.ofBits (F := Ideal) .f32 0xFF800000#32 = (⊥ : EReal) := by
  show Ideal.ofBits .f32 0xFF800000#32 = ⊥
  simp [Ideal.ofBits, Ideal.ieee]

/-- A maximum-reduce over the eight rows from an initial value −∞, of an array of real numbers, is a real number:
    it is the fold of the maximum over the eight coordinates of the reduced axis. -/
theorem host_max_reduce_real {u : Shape} (x : S8x1.Idx → Ideal .f32) (init : u.Idx → Ideal .f32)
    (h' : S8x1.ReducesTo [0] S1) (hu : 0 < u.numel) (hinit : init (Shape.Idx.first hu) = (⊥ : EReal))
    (h : ∀ i, ∃ r : ℝ, x i = (r : EReal)) (j : S1.Idx) :
    ∃ m : ℝ, Host.reduce (FloatOps.maximumf (F := Ideal) (φ := .f32)) x init h' hu j = (m : EReal) := by
  have hR : S8x1.Reduces [0] S1 := by decide
  rw [Host.reduce_eq_fold_single (FloatOps.maximumf (F := Ideal) (φ := .f32)) x init h' hR hu j, hinit]
  exact fold_max_bot_real (n := S8x1.size 0) (by decide) (x ∘ hR.lift j) (fun k => h _)

/-- The maximum of the eight real entries, reduced from −∞, is a real number. -/
theorem max_reduce_real (x3 : (⟨S8x1, .f32⟩ : BufTy).Contents (Elt Ideal)) (h : ∀ i, ∃ r : ℝ, x3 i = (r : EReal)) (j : S1.Idx) :
    ∃ m : ℝ, val_main_v1 (F := Ideal) x3 j = (m : EReal) := by
  unfold val_main_v1
  exact host_max_reduce_real x3 _ _ _ (by rw [val_main_cst_apply]; exact ofBits_neg_inf) h j

/-- The same maximum once more compared with −∞ (the stage the subtraction reads) is still that real number. -/
theorem max_real (x3 : (⟨S8x1, .f32⟩ : BufTy).Contents (Elt Ideal)) (h : ∀ i, ∃ r : ℝ, x3 i = (r : EReal)) (j : S1.Idx) :
    ∃ m : ℝ, val_main_v3 (F := Ideal) x3 j = (m : EReal) := by
  obtain ⟨m, hm⟩ := max_reduce_real x3 h j
  refine ⟨m, ?_⟩
  rw [val_main_v3_apply, val_main_v2_apply, val_main_cst_0_apply, hm, ofBits_neg_inf, Ideal.maximumf_def]
  exact max_eq_right bot_le

/-- The softplus table at a real entry r is max r 0 + log (1 + exp (−max r (−r))). The comparison of a value with itself
    for "not equal" is never true on the extended reals, so the selection always takes its second branch; 1 + exp (…) is
    positive, so the logarithm is the real one. -/
theorem softplus_value (x2 : (⟨S8x1024, .f32⟩ : BufTy).Contents (Elt Ideal)) (i : S8x1024.Idx) (r : ℝ) (hr : x2 i = (r : EReal)) :
    val_main_v0 (F := Ideal) x2 i = ((max r 0 + Real.log (1 + Real.exp (-(max r (-r)))) : ℝ) : EReal) := by
  have hpos : (0:ℝ) < 1 + Real.exp (-(max r (-r))) := by positivity
  rw [val_main_v0_apply, val_main_call0_v4_apply, val_main_call0_v11_apply, val_main_call0_v1_apply, val_main_call0_v10_apply,
    val_main_call0_v9_apply, val_main_call0_v8_apply, val_main_call0_v7_apply, val_main_call0_v3_apply, val_main_call0_v0_apply,
    val_main_call0_v2_apply, val_main_call0_cst_apply, hr]
  have hc : Ideal.cmp .une (r : EReal) (r : EReal) = 0#1 := by simp [Ideal.cmp]
  simp only [Ideal.ofBits_def, Ideal.ofBits_zero_f32, Ideal.cmpf_def, sub_zero, hc, ValueIdx.select_zero, Ideal.subf_def, Ideal.addf_def,
    Ideal.maximumf_def, Ideal.hostAbsf_def, Ideal.hostNegf_def, Ideal.absf_def, Ideal.negf_def, Ideal.hostUnary_exp_def,
    Ideal.hostUnary_log1p_def, Ideal.log1p]
  have e1 : -max (r : EReal) (-(r : EReal)) = ((-(max r (-r)) : ℝ) : EReal) := by
    rw [EReal.coe_neg, coe_max_ereal, EReal.coe_neg]
  have e2 : (1 : EReal) + ((Real.exp (-(max r (-r))) : ℝ) : EReal) = ((1 + Real.exp (-(max r (-r))) : ℝ) : EReal) := by
    rw [EReal.coe_add, EReal.coe_one]
  have e3 : max (r : EReal) 0 = ((max r 0 : ℝ) : EReal) := by
    rw [coe_max_ereal, EReal.coe_zero]
  rw [e1, Ideal.exp_coe, e2, Ideal.log_coe, if_neg (not_le.2 hpos), e3, ← EReal.coe_add]

end Tables

open Tables

/-- The softplus table: at a real entry r the value is max r 0 + log (1 + exp (−|r|)), a real number that is not negative
    (the logarithm of a number above one is positive). -/
theorem softplus_real (x2 : (⟨S8x1024, .f32⟩ : BufTy).Contents (Elt Ideal)) (h : ∀ i, ∃ r : ℝ, x2 i = (r : EReal)) (i : S8x1024.Idx) :
    ∃ s : ℝ, 0 ≤ s ∧ val_main_v0 (F := Ideal) x2 i = (s : EReal) := by
  obtain ⟨r, hr⟩ := h i
  refine ⟨max r 0 + Real.log (1 + Real.exp (-(max r (-r)))), ?_, softplus_value x2 i r hr⟩
  have h1 : 0 ≤ max r 0 := le_max_right _ _
  have h2 : 0 ≤ Real.log (1 + Real.exp (-(max r (-r)))) :=
    Real.log_nonneg (by linarith [Real.exp_pos (-(max r (-r)))])
  linarith

/-- The softmax table: with m the (real) maximum of the eight real entries, each entry is exp (r − m) divided by the sum S of
    the eight such exponentials; S is a positive real number, so the quotient is the real exp (r − m) · (1 / S), which is
    not negative. -/
theorem softmax_real (x3 : (⟨S8x1, .f32⟩ : BufTy).Contents (Elt Ideal)) (h : ∀ i, ∃ r : ℝ, x3 i = (r : EReal)) (i : S8x1.Idx) :
    ∃ q : ℝ, 0 ≤ q ∧ val_main_v11 (F := Ideal) x3 i = (q : EReal) := by
  have hmax : ∀ j : S1.Idx, ∃ m : ℝ, val_main_v3 (F := Ideal) x3 j = (m : EReal) := max_real x3 h
  choose r hr using h
  choose m hm using hmax
  have h7 : ∀ i : S8x1.Idx, val_main_v7 (F := Ideal) x3 i
      = ((Real.exp (r i - m (idx_main_v4 (idx_main_v5 i))) : ℝ) : EReal) := by
    intro i
    rw [val_main_v7_apply, val_main_v6_apply, val_main_v5_apply, val_main_v4_apply, hm, hr, Ideal.subf_def, ← EReal.coe_sub,
      Ideal.hostUnary_exp_def, Ideal.exp_coe]
  have h8 : ∀ j : S1.Idx, val_main_v8 (F := Ideal) x3 j
      = ((∑ k : Fin 8, Real.exp (r (idx_main_v8 j k) - m (idx_main_v4 (idx_main_v5 (idx_main_v8 j k)))) : ℝ) : EReal) := by
    intro j
    rw [val_main_v8_apply, val_main_cst_1_apply, Ideal.ofBits_def, Ideal.ofBits_zero_f32, zero_add]
    simp only [h7]
    exact sum_coe_ereal _ _
  have hS : ∀ j : S1.Idx, (0 : ℝ) < ∑ k : Fin 8, Real.exp (r (idx_main_v8 j k) - m (idx_main_v4 (idx_main_v5 (idx_main_v8 j k)))) :=
    fun j => Finset.sum_pos (fun k _ => Real.exp_pos _) ⟨0, Finset.mem_univ _⟩
  refine ⟨Real.exp (r i - m (idx_main_v4 (idx_main_v5 i)))
      * (1 / ∑ k : Fin 8, Real.exp (r (idx_main_v8 (idx_main_v9 (idx_main_v10 i)) k)
          - m (idx_main_v4 (idx_main_v5 (idx_main_v8 (idx_main_v9 (idx_main_v10 i)) k))))), ?_, ?_⟩
  · exact mul_nonneg (Real.exp_pos _).le (one_div_pos.2 (hS _)).le
  · rw [val_main_v11_apply, val_main_v10_apply, val_main_v9_apply, h7, h8, Ideal.hostDivf_def, Ideal.div_coe (hS _).ne', ← EReal.coe_mul]

end Cert.PosteriorNorm
-- ==== Proof.Bridge.lean ====
/-
  Both programs' results are one function of the argument arrays.

  The common function: at (b, l, d), the factored arrangement of the sample there and of column d of the means, of the
  softplus table and of the softmax column. The kernel's array is that function exactly: the tables its region finds are the
  exponent scale and the coefficient the factored arrangement is written with. The reference's result is the termwise
  arrangement of the same columns, and the two arrangements agree because every entry involved is a real number, the
  softmax entries and the softplus values are non-negative and ε is positive, so no denominator vanishes.
-/
import proofs.«157584_j66735201845900_2_alg».proof.Proof.KernelArray
import proofs.«157584_j66735201845900_2_alg».proof.Proof.KernelTables
import proofs.«157584_j66735201845900_2_alg».proof.Proof.ReferenceRead
import proofs.«157584_j66735201845900_2_alg».proof.Proof.Law
import proofs.«157584_j66735201845900_2_alg».proof.Proof.Tables

noncomputable section

namespace Cert.PosteriorNorm

open Idealize.ShloMosaic Idealize.ShloMosaic.TcCoe Idealize.ShloMosaic.ValueIdx Idealize.SL.Sem

/-- The common result: at (b, l, d) the factored arrangement of x0 there and of column d of x1, of the softplus of x2 and of
    the softmax of x3. -/
def result (x0 : (⟨Cert.ReferenceIdeal.S4x2048x1024, .f32⟩ : BufTy).Contents (Elt Ideal))
    (x1 x2 : (⟨Cert.ReferenceIdeal.S8x1024, .f32⟩ : BufTy).Contents (Elt Ideal))
    (x3 : (⟨Cert.ReferenceIdeal.S8x1, .f32⟩ : BufTy).Contents (Elt Ideal)) : Cert.ReferenceIdeal.S4x2048x1024.Idx → EReal :=
  fun i => factored (piCol x3) (sigmaCol x2 (⟨(i 2).val, (i 2).isLt⟩ : Fin 1024)) (muCol x1 (⟨(i 2).val, (i 2).isLt⟩ : Fin 1024)) (x0 i)

section Kernel
open Cert.KernelIdeal Cert.KernelIdeal.Gen

variable (m : (ℓ : Loc nD τ sig) → Buf (Elt Ideal) ℓ)

/-- The kernel's array is the common result of its argument arrays. -/
theorem kernel_value (c : Dev nD) :
    blockwise (V m c (Pipeline.arrRef spec0 0)) (V m c (Pipeline.arrRef spec0 1)) (V m c (Pipeline.arrRef spec0 2))
        (V m c (Pipeline.arrRef spec0 3)) (V m c (Pipeline.arrRef spec0 4))
      = result (m ((c : Thread nD τ).loc main_arg0)) (m ((c : Thread nD τ).loc main_arg1))
          (m ((c : Thread nD τ).loc main_arg2)) (m ((c : Thread nD τ).loc main_arg3)) := by
  have a0 : V m c (Pipeline.arrRef spec0 0) = V m c main_arg0 := rfl
  have a1 : V m c (Pipeline.arrRef spec0 1) = V m c main_arg1 := rfl
  have a2 : V m c (Pipeline.arrRef spec0 2) = V m c main_v15 := rfl
  have a3 : V m c (Pipeline.arrRef spec0 3) = V m c main_v4 := rfl
  have a4 : V m c (Pipeline.arrRef spec0 4) = V m c main_v21 := rfl
  rw [a0, a1, a2, a3, a4]
  funext i
  rw [blockwise_at _ _ _ _ _ i (⟨(i 2).val, (i 2).isLt⟩ : Fin 1024) rfl]
  unfold result
  rw [factored_eq_blockElt, V_main_arg0, V_main_arg1, table_pi]
  exact congr (congr (congr (congr (congrArg blockElt rfl) (funext fun k => table_scale_at m c k _)) rfl)
    (funext fun k => table_coeff_at m c k _)) rfl

end Kernel

/-- The reference's last stage is the common result of arrays of real numbers. -/
theorem reference_value (x0 : (⟨Cert.ReferenceIdeal.S4x2048x1024, .f32⟩ : BufTy).Contents (Elt Ideal))
    (x1 x2 : (⟨Cert.ReferenceIdeal.S8x1024, .f32⟩ : BufTy).Contents (Elt Ideal))
    (x3 : (⟨Cert.ReferenceIdeal.S8x1, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    Cert.ReferenceIdeal.Read.val_main_v46 (F := Ideal) x0 x1 x2 x3 = result x0 x1 x2 x3 := by
  funext i
  obtain ⟨b, l, d, rfl⟩ : ∃ (b : Fin 4) (l : Fin 2048) (d : Fin 1024), i = ix3 b l d := ⟨i 0, i 1, i 2, eq_ix3 i⟩
  rw [reference_at]
  exact (factored_eq_termwise_of_real (piCol x3) (sigmaCol x2 d) (muCol x1 d) (x0 (ix3 b l d))
    (fun k => softmax_real x3 h3 _) (fun k => softplus_real x2 h2 _) (fun k => h1 _) (h0 _)).symm

end Cert.PosteriorNorm

end
-- ==== Proof.lean ====
/-
  The kernel normalises each sample by a posterior-weighted mixture of eight components: with π the softmax of the prior and
  σ the softplus of the spread, w k = π k · exp(−½ (x − μ k)² / (σ k + ε)), it returns
      Σ_k w k / (Σ_j w j + ε) · (x − μ k) / (√(π k + ε) · √(σ k + ε)).
  The reference divides term by term; the kernel precomputes −½ / (σ + ε) and (π + ε)^(−½) (σ + ε)^(−½) as tables, adds the
  eight weighted deviations in order, and multiplies once by 1 / (Σ w + ε). On the extended reals the two are equal for
  finite inputs: every quantity is then a real number, π ≥ 0, σ ≥ 0 and ε > 0 keep every denominator away from zero, and
  the identity is one of real arithmetic (Proof/Law.lean). The modules: Spec (both arrangements), Law, Finite (finite inputs
  are real), Tables (softmax and softplus are real and non-negative), BodyValue (one element of what the body stores),
  Cover and KernelArray (the sixteen blocks make the array), KernelTables (the tables the region finds), ReferenceRead (the
  reference's result at an index), Bridge (both results are one function). The three frames are the generated ones; the
  idealisation rewrote nothing, so preserves is trivial.
-/
import proofs.«157584_j66735201845900_2_alg».proof.Defs
import proofs.«157584_j66735201845900_2_alg».proof.Proof.Gen.Kernel
import proofs.«157584_j66735201845900_2_alg».proof.Proof.Gen.Kernel.Skeleton
import proofs.«157584_j66735201845900_2_alg».proof.Proof.Gen.Kernel.Launch
import proofs.«157584_j66735201845900_2_alg».proof.Proof.Gen.Kernel.Points
import proofs.«157584_j66735201845900_2_alg».proof.Proof.Gen.Kernel.Frame
import proofs.«157584_j66735201845900_2_alg».proof.Proof.Gen.KernelIdeal
import proofs.«157584_j66735201845900_2_alg».proof.Proof.Gen.KernelIdeal.Skeleton
import proofs.«157584_j66735201845900_2_alg».proof.Proof.Gen.KernelIdeal.Launch
import proofs.«157584_j66735201845900_2_alg».proof.Proof.Gen.KernelIdeal.Points
import proofs.«157584_j66735201845900_2_alg».proof.Proof.Gen.KernelIdeal.Frame
import proofs.«157584_j66735201845900_2_alg».proof.Proof.Gen.ReferenceIdeal
import proofs.«157584_j66735201845900_2_alg».proof.Proof.Gen.Pre_finite_inputs
import proofs.«157584_j66735201845900_2_alg».proof.Proof.Gen.ReferenceIdeal.Run
import proofs.«157584_j66735201845900_2_alg».proof.Proof.Gen.ReferenceIdeal.Read
import proofs.«157584_j66735201845900_2_alg».proof.Proof.Finite
import proofs.«157584_j66735201845900_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealised programs end at the common result of the argument arrays: the kernel by its blocks, the reference by
    its stages read at an index and the law between the two arrangements, which is where the finite inputs are used. -/
theorem algebraic : Cert.algebraic_KernelIdeal_ReferenceIdeal := by
  intro m ρ m' ρ' hpre hagree
  refine ⟨fun c => Cert.PosteriorNorm.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.PosteriorNorm.kernel_value m c), (h c).2⟩) (Cert.PosteriorNorm.kernel_run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v46_eq, (hagree c).1, (hagree c).2.1, (hagree c).2.2.1, (hagree c).2.2.2]
    obtain ⟨h0, h1, h2, h3⟩ := Cert.PosteriorNorm.real_of_finite_inputs _ _ _ _ (hpre c)
    exact Cert.PosteriorNorm.reference_value _ _ _ _ h0 h1 h2 h3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
